-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S100000x128x1 : Shape := ⟨3, ![100000, 128, 1]⟩
abbrev S100000x128x2 : Shape := ⟨3, ![100000, 128, 2]⟩

abbrev nBuf : Space → Nat
  | .hbm => 66
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .hbm, ⟨63, _⟩ => ⟨S100000x128x1, .f32⟩
  | .hbm, ⟨64, _⟩ => ⟨S100000x128x1, .f32⟩
  | .hbm, ⟨65, _⟩ => ⟨S100000x128x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000x128_S100000x128x1_0_1 : S100000x128.BroadcastsInDim S100000x128x1 (![0, 1] : Fin 2 → Fin S100000x128x1.rank)
  concatenates_S100000x128x1_S100000x128x1_S100000x128x2_d2 : Shape.Concatenates [S100000x128x1, S100000x128x1] S100000x128x2 2
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x128x1 : Shape := ⟨3, ![100000, 128, 1]⟩
abbrev S100000x128x2 : Shape := ⟨3, ![100000, 128, 2]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128x1, .f32⟩
  | .hbm, ⟨85, _⟩ => ⟨S100000x128x1, .f32⟩
  | .hbm, ⟨86, _⟩ => ⟨S100000x128x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x128_S100000x128x1_0_1 : S100000x128.BroadcastsInDim S100000x128x1 (![0, 1] : Fin 2 → Fin S100000x128x1.rank)
  concatenates_S100000x128x1_S100000x128x1_S100000x128x2_d2 : Shape.Concatenates [S100000x128x1, S100000x128x1] S100000x128x2 2
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized tiled program's run, with every buffer that outlives a kernel region named at the end.

  The program is five stretches in a row: host operations, the first layer's tiled region, host operations, the
  second layer's tiled region, host operations. The buffer contents at each boundary are a fold through the program
  (`Gen.W0` … `Gen.W5`): a stretch of host operations applies them, a region replaces its arrays by what its
  write-backs leave. Every weakly fair execution terminates without a fault in a state whose every unscoped buffer
  holds the fold's last stage `Gen.W5`; in particular the result buffer does, and the arguments do.
-/
import proofs.«150339_j19851338842495_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    buffer of every core holds the last stage of the fold through the program's five stretches. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run, read at the result buffer and at the eight arguments: the result holds the fold's last stage,
    the arguments what they were launched with. -/
theorem run_result : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)
    (run_fold m ρ)

end Cert.KernelIdeal.RunValue

end
-- ==== Proof.KTerms.lean ====
/-
  The host side of the idealized tiled program, as named array functions.

  From the edge list `e` (row 0 the sources, row 1 the targets) and node features `h` the host operations compute:
  the sum over incoming edges of the source rows (`aggK`: gather at the sources, a negative source counted from the
  end, then add into the target's row, from zero); the in-degree clamped below by one (`degK`) and its reciprocal
  as a column (`invK`); a weight matrix transposed (`trK`); a bias vector as a row (`rowK`); and, at the end, the
  two layers' outputs joined along a new last axis (`outK`). Changes of float format are part of the spelling and
  are the identity on extended reals.
-/
import proofs.«150339_j19851338842495_2_alg».proof.Proof.Gen.KernelIdeal
import Idealize.ShloMosaic.PureOps.Ideal

noncomputable section

namespace Cert.KernelIdeal.Fold

open Cert.KernelIdeal Cert.KernelIdeal.Gen Idealize.ShloMosaic Idealize.ShloMosaic.TcCoe

abbrev EdgeArr := (⟨S2x1600000, .i32⟩ : BufTy).Contents (Elt Ideal)
abbrev EdgeRow := (⟨S1600000, .i32⟩ : BufTy).Contents (Elt Ideal)
abbrev NodeArr := (⟨S100000x128, .f32⟩ : BufTy).Contents (Elt Ideal)
abbrev MatArr := (⟨S128x128, .f32⟩ : BufTy).Contents (Elt Ideal)
abbrev VecArr := (⟨S128, .f32⟩ : BufTy).Contents (Elt Ideal)

/-- The edges' source nodes: row 0 of the edge list. -/
def srcK (e : EdgeArr) : EdgeRow :=
  shapeCast _ (extractStridedSlice S1x1600000 ![0, 0] e slices_S2x1600000_S1x1600000_0_0) shapeCasts_S1x1600000_S1600000

/-- The edges' target nodes: row 1 of the edge list. -/
def dstK (e : EdgeArr) : EdgeRow :=
  shapeCast _ (extractStridedSlice S1x1600000 ![1, 0] e slices_S2x1600000_S1x1600000_1_0) shapeCasts_S1x1600000_S1600000

/-- Neighbour aggregation: gather the rows of `h` at the edges' sources (a negative source counted from the end)
    and add each into the row of its target, from zero. -/
def aggK (h : NodeArr) (s d : EdgeRow) : NodeArr :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf (F := Ideal) (φ := .bf16) .f32 (Host.gather gather_S100000x128_S1600000x1_S1600000x128_1_0_n_n_0_1_1128 (truncf (F := Ideal) (φ := .f32) .bf16 h bitsLt_bf16_f32)
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- The in-degree (one added per incoming edge, from zero), clamped below by one. -/
def degK (d : EdgeRow) : (⟨S100000, .f32⟩ : BufTy).Contents (Elt Ideal) :=
  maximumf (F := Ideal) (φ := .f32) (Host.scatterAdd (F := Ideal) (φ := .f32) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- The reciprocals of a vector of degrees, as a column. -/
def invOfK (dg : (⟨S100000, .f32⟩ : BufTy).Contents (Elt Ideal)) : (⟨S100000x1, .f32⟩ : BufTy).Contents (Elt Ideal) :=
  shapeCast _ (Host.divf (F := Ideal) (φ := .f32) (broadcastInDim S100000 ![] bcast_S_S100000 (constant (F := Ideal) S_ .f32 0x3F800000#32)) dg) shapeCasts_S100000_S100000x1

/-- The reciprocal of the clamped in-degree, as a column. -/
def invK (d : EdgeRow) : (⟨S100000x1, .f32⟩ : BufTy).Contents (Elt Ideal) := invOfK (degK d)

/-- A weight matrix transposed. -/
def trK (w : MatArr) : MatArr := transpose S128x128 [1, 0] w transposes_S128x128_S128x128_1_0

/-- A bias vector as a row. -/
def rowK (b : VecArr) : (⟨S1x128, .f32⟩ : BufTy).Contents (Elt Ideal) := shapeCast _ b shapeCasts_S128_S1x128

/-- The two layers' outputs joined along a new last axis. -/
def outK (y1 y2 : NodeArr) : (⟨S100000x128x2, .f32⟩ : BufTy).Contents (Elt Ideal) :=
  concatenate S100000x128x2 2 [⟨S100000x128x1, broadcastInDim S100000x128x1 ![0, 1] bcast_S100000x128_S100000x128x1_0_1 y1⟩,
    ⟨S100000x128x1, broadcastInDim S100000x128x1 ![0, 1] bcast_S100000x128_S100000x128x1_0_1 y2⟩] concatenates_S100000x128x1_S100000x128x1_S100000x128x2_d2

end Cert.KernelIdeal.Fold

end
-- ==== Proof.FoldA.lean ====
/-
  The buffers the first tiled region finds, read as array functions of the program's arguments: what the first
  stretch of host operations leaves in the six arrays the region stages, in the edge rows, and in the arguments
  later stretches read.
-/
import proofs.«150339_j19851338842495_2_alg».proof.Proof.Gen.KernelIdeal.Frame
import proofs.«150339_j19851338842495_2_alg».proof.Proof.KTerms
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first stretch of host operations -/

set_option maxHeartbeats 4000000 in
theorem W1_v1 (c : Dev nD) : W1 m ρ c (Proc.devRef .tc main_v1) = srcK (m ((c : Thread nD τ).loc main_arg1)) := by
  show StableHlo.after hostOps0 (W0 m ρ c) (Proc.devRef .tc main_v1) = _
  after_results_simp <;> rfl

set_option maxHeartbeats 4000000 in
theorem W1_v3 (c : Dev nD) : W1 m ρ c (Proc.devRef .tc main_v3) = dstK (m ((c : Thread nD τ).loc main_arg1)) := by
  show StableHlo.after hostOps0 (W0 m ρ c) (Proc.devRef .tc main_v3) = _
  after_results_simp <;> rfl

set_option maxHeartbeats 4000000 in
theorem W1_v24 (c : Dev nD) : W1 m ρ c (Proc.devRef .tc main_v24) = aggK (m ((c : Thread nD τ).loc main_arg0)) (srcK (m ((c : Thread nD τ).loc main_arg1))) (dstK (m ((c : Thread nD τ).loc main_arg1))) := by
  show StableHlo.after hostOps0 (W0 m ρ c) (Proc.devRef .tc main_v24) = _
  after_results_simp <;> rfl

set_option maxHeartbeats 4000000 in
theorem W1_v12 (c : Dev nD) : W1 m ρ c (Proc.devRef .tc main_v12) = invK (dstK (m ((c : Thread nD τ).loc main_arg1))) := by
  show StableHlo.after hostOps0 (W0 m ρ c) (Proc.devRef .tc main_v12) = _
  after_results_simp <;> rfl

set_option maxHeartbeats 4000000 in
theorem W1_v25 (c : Dev nD) : W1 m ρ c (Proc.devRef .tc main_v25) = trK (m ((c : Thread nD τ).loc main_arg2)) := by
  show StableHlo.after hostOps0 (W0 m ρ c) (Proc.devRef .tc main_v25) = _
  after_results_simp <;> rfl

set_option maxHeartbeats 4000000 in
theorem W1_v26 (c : Dev nD) : W1 m ρ c (Proc.devRef .tc main_v26) = trK (m ((c : Thread nD τ).loc main_arg4)) := by
  show StableHlo.after hostOps0 (W0 m ρ c) (Proc.devRef .tc main_v26) = _
  after_results_simp <;> rfl

set_option maxHeartbeats 4000000 in
theorem W1_v27 (c : Dev nD) : W1 m ρ c (Proc.devRef .tc main_v27) = rowK (m ((c : Thread nD τ).loc main_arg3)) := by
  show StableHlo.after hostOps0 (W0 m ρ c) (Proc.devRef .tc main_v27) = _
  after_results_simp <;> rfl

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

end Cert.KernelIdeal.Fold

end
-- ==== Proof.FoldB.lean ====
/-
  The buffers at the later boundaries of the program, each read from the boundary before it: a region leaves its
  output array at what its write-backs fold to and every other buffer as it found it; the second stretch of host
  operations rebuilds the aggregated features from the first layer's output; the last stretch joins the two outputs.
-/
import proofs.«150339_j19851338842495_2_alg».proof.Proof.Gen.KernelIdeal.Frame
import proofs.«150339_j19851338842495_2_alg».proof.Proof.KTerms
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first layer's output array: what the first region's write-backs leave. -/
def out0 (c : Dev nD) : NodeArr := (dat0 (V1 m ρ) c).arrAt 6 cfg0.N

/-- The second layer's output array: what the second region's write-backs leave. -/
def out1 (c : Dev nD) : NodeArr := (dat1 (V3 m ρ) c).arrAt 6 cfg1.N

/-! ## At the first region's exit -/

theorem W2_v28 (c : Dev nD) : W2 m ρ c (Proc.devRef .tc main_v28) = out0 m ρ c := W2_arr m ρ c 6
theorem W2_v12 (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)

/-! ## After the second stretch of host operations -/

set_option maxHeartbeats 4000000 in
theorem W3_v40 (c : Dev nD) : W3 m ρ c (Proc.devRef .tc main_v40) = aggK (W2 m ρ c (Proc.devRef .tc main_v28)) (W2 m ρ c (Proc.devRef .tc main_v1)) (W2 m ρ c (Proc.devRef .tc main_v3)) := by
  show StableHlo.after hostOps1 (W2 m ρ c) (Proc.devRef .tc main_v40) = _
  after_results_simp <;> rfl

set_option maxHeartbeats 4000000 in
theorem W3_v28 (c : Dev nD) : W3 m ρ c (Proc.devRef .tc main_v28) = W2 m ρ c (Proc.devRef .tc main_v28) := by
  show StableHlo.after hostOps1 (W2 m ρ c) (Proc.devRef .tc main_v28) = _
  after_results_simp <;> rfl

set_option maxHeartbeats 4000000 in
theorem W3_v12 (c : Dev nD) : W3 m ρ c (Proc.devRef .tc main_v12) = W2 m ρ c (Proc.devRef .tc main_v12) := by
  show StableHlo.after hostOps1 (W2 m ρ c) (Proc.devRef .tc main_v12) = _
  after_results_simp <;> rfl

set_option maxHeartbeats 4000000 in
theorem W3_v41 (c : Dev nD) : W3 m ρ c (Proc.devRef .tc main_v41) = trK (W2 m ρ c (Proc.devRef .tc main_arg5)) := by
  show StableHlo.after hostOps1 (W2 m ρ c) (Proc.devRef .tc main_v41) = _
  after_results_simp <;> rfl

set_option maxHeartbeats 4000000 in
theorem W3_v42 (c : Dev nD) : W3 m ρ c (Proc.devRef .tc main_v42) = trK (W2 m ρ c (Proc.devRef .tc main_arg7)) := by
  show StableHlo.after hostOps1 (W2 m ρ c) (Proc.devRef .tc main_v42) = _
  after_results_simp <;> rfl

set_option maxHeartbeats 4000000 in
theorem W3_v43 (c : Dev nD) : W3 m ρ c (Proc.devRef .tc main_v43) = rowK (W2 m ρ c (Proc.devRef .tc main_arg6)) := by
  show StableHlo.after hostOps1 (W2 m ρ c) (Proc.devRef .tc main_v43) = _
  after_results_simp <;> rfl

/-! ## At the second region's exit, and after the last stretch -/

theorem W4_v44 (c : Dev nD) : W4 m ρ c (Proc.devRef .tc main_v44) = out1 m ρ c := W4_arr m ρ c 6
theorem W4_v28 (c : Dev nD) : W4 m ρ c (Proc.devRef .tc main_v28) = W3 m ρ c (Proc.devRef .tc main_v28) :=
  (W4_arr m ρ c 1).trans (((dat1 (V3 m ρ) c).arrAt_in 1 rfl _).trans (A_eq1 (V3 m ρ) c 1))

set_option maxHeartbeats 4000000 in
theorem W5_v47 (c : Dev nD) : W5 m ρ c (Proc.devRef .tc main_v47)
    = outK (W4 m ρ c (Proc.devRef .tc main_v28)) (W4 m ρ c (Proc.devRef .tc main_v44)) := by
  show StableHlo.after hostOps2 (W4 m ρ c) (Proc.devRef .tc main_v47) = _
  after_results_simp <;> rfl

end Cert.KernelIdeal.Fold

end
-- ==== Proof.Spec.lean ====
/-
  One node of one graph-convolution layer, as a function of extended reals.

  A layer sends node `r` to `relu (mean_r · Wlᵀ + x_r · Wrᵀ + b)`, where `mean_r` is the sum of the
  neighbours' rows scaled by the reciprocal of the node's (clamped) in-degree. `nodeOut` is that value at one
  output channel `j`, written the way the tiled program computes it: the aggregated row `a` is first multiplied
  by the scalar `s` (the reciprocal degree), then contracted with column `j` of `wl`; the node's own row `x` is
  contracted with column `j` of `wr`; the two sums are added, then the bias, and the result is clamped at zero.
  Both programs' layers are stated against this one function.
-/
import Idealize.ShloMosaic.PureOps.Ideal

noncomputable section

namespace Cert.Sage

/-- The layer's value at one node and one output channel `j`: `max ((Σₖ (aₖ·s)·wlₖⱼ + Σₖ xₖ·wrₖⱼ) + bⱼ) 0`. -/
def nodeOut (a x : Fin 128 → EReal) (s : EReal) (wl wr : Fin 128 → Fin 128 → EReal) (b : Fin 128 → EReal)
    (j : Fin 128) : EReal :=
  max ((∑ k : Fin 128, (a k * s) * wl k j + ∑ k : Fin 128, x k * wr k j) + b j) 0

end Cert.Sage

end
-- ==== Proof.Payload.lean ====
/-
  The tiled program's arithmetic at one entry of one block of 5000 nodes.

  The body multiplies the aggregated block by the column of reciprocal degrees (broadcast along the 128 channels),
  contracts the result with one 128 × 128 weight matrix and the node block with another (each product accumulated
  from zero), adds the two products and the bias row (broadcast over the 5000 rows), and clamps at zero. Over the
  extended reals the roundings to the narrower format are the identity, so at entry (p, q) this is exactly
  `Cert.Sage.nodeOut` of row p of the two blocks, the reciprocal degree of row p, the two matrices and the bias,
  at channel q. Both regions of the program have this body (the second with one more identity shape cast).
-/
import proofs.«150339_j19851338842495_2_alg».proof.Proof.Gen.KernelIdeal.Skeleton
import proofs.«150339_j19851338842495_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Sage

open Idealize.ShloMosaic Idealize.ShloMosaic.ValueIdx Cert.KernelIdeal

/-! ## A column broadcast along the lanes -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a `[5000, 128]` block with a `[128, 128]` matrix, read at one entry -/

/-- The left operand's row coordinate is the output's. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at entry `(p, q)`: the sum over the 128 contracted positions of
    the left operand's row `p` times the right operand's column `q`. -/
theorem matmul_read {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  show FloatOps.matmul dot_S5000x128_S128x128_S5000x128_1_0_0_1_n_n none lhs rhs (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's value at one entry -/

/-- The first region's body at entry `(p, q)`: row `p` of the aggregated block scaled by the reciprocal degree of
    row `p` and contracted with column `q` of the first weight matrix, plus row `p` of the node block contracted
    with column `q` of the second, plus the bias at `q`, clamped at zero. -/
theorem pay0_apply (v0 : Vec Ideal S5000x128 .f32) (v2 : Vec Ideal S5000x1 .f32) (v7 : Vec Ideal S5000x128 .f32) (v9 v12 : Vec Ideal S128x128 .f32) (v18 : Vec Ideal S1x128 .f32) (p : Fin 5000) (q : Fin 128) :
    Gen.k0_pay1 (F := Ideal) v0 v2 v7 v9 v12 v18 (ix2 p q)
      = Cert.Sage.nodeOut (fun k => v0 (ix2 p k)) (fun k => v7 (ix2 p k)) (v2 (ix2 p 0)) (fun k j => v9 (ix2 k j)) (fun k j => v12 (ix2 k j)) (fun j => v18 (ix2 0 j)) q := by
  unfold Gen.k0_pay1
  -- the shape casts keep the shape: they are the identity
  simp only [shapeCast_self]
  -- the clamp, the two additions, the two products and the constant 0, each read at the entry (p, q)
  rw [maximumf_apply, addf_apply, addf_apply, matmul_read, matmul_read, broadcast_apply]
  -- the bias row broadcast over the rows reads its entry of column q
  rw [broadcastTo_1b_ab_apply]
  -- under the sums: rounding is the identity on extended reals; the product with the broadcast column is
  -- the product with the column's entry of row p
  simp only [truncf_apply, mulf_apply, broadcastTo_a1_ab_apply]
  unfold Cert.Sage.nodeOut
  -- the constant's word 0 is the number 0
  exact congrArg (max _) Ideal.ofBits_zero_f32

/-- The second region's body at entry `(p, q)`: the same value (its term differs by one more identity shape cast). -/
theorem pay1_apply (v0 : Vec Ideal S5000x128 .f32) (v2 : Vec Ideal S5000x1 .f32) (v7 : Vec Ideal S5000x128 .f32) (v9 v12 : Vec Ideal S128x128 .f32) (v18 : Vec Ideal S1x128 .f32) (p : Fin 5000) (q : Fin 128) :
    Gen.k1_pay1 (F := Ideal) v0 v2 v7 v9 v12 v18 (ix2 p q)
      = Cert.Sage.nodeOut (fun k => v0 (ix2 p k)) (fun k => v7 (ix2 p k)) (v2 (ix2 p 0)) (fun k j => v9 (ix2 k j)) (fun k j => v12 (ix2 k j)) (fun j => v18 (ix2 0 j)) q := by
  unfold Gen.k1_pay1
  -- the shape casts keep the shape: they are the identity
  simp only [shapeCast_self]
  -- the clamp, the two additions, the two products and the constant 0, each read at the entry (p, q)
  rw [maximumf_apply, addf_apply, addf_apply, matmul_read, matmul_read, broadcast_apply]
  -- the bias row broadcast over the rows reads its entry of column q
  rw [broadcastTo_1b_ab_apply]
  -- under the sums: rounding is the identity on extended reals; the product with the broadcast column is
  -- the product with the column's entry of row p
  simp only [truncf_apply, mulf_apply, broadcastTo_a1_ab_apply]
  unfold Cert.Sage.nodeOut
  -- the constant's word 0 is the number 0
  exact congrArg (max _) Ideal.ofBits_zero_f32

end Cert.KernelIdeal.Sage

end
-- ==== Proof.RegionValue.lean ====
/-
  Each tiled region's output array as ONE function of the six arrays the region stages.

  A region walks twenty tiles of 5000 nodes. At tile `t` it stages rows `t·5000 … t·5000 + 4999` of the aggregated
  neighbour features, of the node features and of the reciprocal-degree column, together with the two weight
  matrices and the bias row whole; its body stores, at row `p` and channel `q` of the tile, the node value
  `Cert.Sage.nodeOut` of row `t·5000 + p`; the tile is written back to rows `t·5000 …` of the output. The twenty
  tiles cover the output array, so after the region the array is the whole-array function `layerArr` of the six
  arrays as the region found them — whatever those contents are (`V` is a parameter: the two regions are entered
  with different contents).
-/
import proofs.«150339_j19851338842495_2_alg».proof.Proof.Gen.KernelIdeal.Frame
import proofs.«150339_j19851338842495_2_alg».proof.Proof.Spec
import proofs.«150339_j19851338842495_2_alg».proof.Proof.Payload
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-- One layer as a whole-array function of the six arrays a region stages: aggregated neighbour features and node
    features ([100000, 128]), the reciprocal-degree column ([100000, 1]), the two weight matrices as the region
    reads them ([128, 128], contracted on their first axis) and the bias row ([1, 128]). Entry `(r, j)` is the
    node value of row `r` at channel `j`. -/
def layerArr (agg h : S100000x128.Idx → EReal) (inv : S100000x1.Idx → EReal) (wl wr : S128x128.Idx → EReal)
    (b : S1x128.Idx → EReal) : S100000x128.Idx → EReal := fun i =>
  Cert.Sage.nodeOut (fun k => agg (ix2 (⟨(i 0).val, (i 0).isLt⟩ : Fin 100000) k))
    (fun k => h (ix2 (⟨(i 0).val, (i 0).isLt⟩ : Fin 100000) k))
    (inv (ix2 (⟨(i 0).val, (i 0).isLt⟩ : Fin 100000) 0))
    (fun k j => wl (ix2 k j)) (fun k j => wr (ix2 k j)) (fun j => b (ix2 0 j)) (⟨(i 1).val, (i 1).isLt⟩ : Fin 128)

theorem layerArr_ix2 (agg h : S100000x128.Idx → EReal) (inv : S100000x1.Idx → EReal) (wl wr : S128x128.Idx → EReal)
    (b : S1x128.Idx → EReal) (r : Fin 100000) (j : Fin 128) :
    layerArr agg h inv wl wr b (ix2 r j) = Cert.Sage.nodeOut (fun k => agg (ix2 r k)) (fun k => h (ix2 r k)) (inv (ix2 r 0))
      (fun k j => wl (ix2 k j)) (fun k j => wr (ix2 k j)) (fun j => b (ix2 0 j)) j := rfl

/-- The node value depends on its six arguments only. -/
theorem nodeOut_congr {a a' x x' : Fin 128 → EReal} {s s' : EReal} {wl wl' wr wr' : Fin 128 → Fin 128 → EReal}
    {b b' : Fin 128 → EReal} (ha : a = a') (hx : x = x') (hs : s = s') (hwl : wl = wl') (hwr : wr = wr') (hb : b = b')
    (j : Fin 128) : Cert.Sage.nodeOut a x s wl wr b j = Cert.Sage.nodeOut a' x' s' wl' wr' b' j := by
  subst ha hx hs hwl hwr hb; rfl

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- The printed index maps of region 0, decided over its twenty grid points: the three row-tiled inputs and the
    output sit at block row `t`, column block `0`; the two weight matrices and the bias row are one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the aggregated-features tile at point `t` is row `t·5000 + p` of the array. -/
theorem agg0_at (c : Dev nD) (t : Fin cfg0.N) (p : Fin 5000) (k : Fin 128) (r : Fin 100000) (hr : r.val = t.val * 5000 + p.val) :
    iblk0 V c 0 t (ix2 p k) = V c main_v24 (ix2 r k) := by
  show V c main_v24 (((cfg0.win 0).blk t).view.emb (ix2 p k)) = V c main_v24 (ix2 r k)
  refine congrArg (V c main_v24) ?_
  obtain ⟨e0, e1, -⟩ := idx0 t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Row `p` of the node-features tile at point `t` is row `t·5000 + p` of the array. -/
theorem feat0_at (c : Dev nD) (t : Fin cfg0.N) (p : Fin 5000) (k : Fin 128) (r : Fin 100000) (hr : r.val = t.val * 5000 + p.val) :
    iblk0 V c 1 t (ix2 p k) = V c main_arg0 (ix2 r k) := by
  show V c main_arg0 (((cfg0.win 1).blk t).view.emb (ix2 p k)) = V c main_arg0 (ix2 r k)
  refine congrArg (V c main_arg0) ?_
  obtain ⟨-, -, e0, e1, -⟩ := idx0 t
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- Entry `p` of the reciprocal-degree column tile at point `t` is entry `t·5000 + p` of the column. -/
theorem inv0_at (c : Dev nD) (t : Fin cfg0.N) (p : Fin 5000) (r : Fin 100000) (hr : r.val = t.val * 5000 + p.val) :
    iblk0 V c 2 t (ix2 p 0) = V c main_v12 (ix2 r 0) := by
  show V c main_v12 (((cfg0.win 2).blk t).view.emb (ix2 p 0)) = V c main_v12 (ix2 r 0)
  refine congrArg (V c main_v12) ?_
  obtain ⟨-, -, -, -, e0, e1, -⟩ := idx0 t
  funext a; apply Fin.ext
  match a with
  | ⟨0, _⟩ => show win0_2.index t (0 : Fin 2) * 5000 + 1 * p.val = r.val; omega
  | ⟨1, _⟩ => show win0_2.index t (1 : Fin 2) * 1 + 1 * 0 = 0; omega

/-- The left weight matrix is staged whole at every point. -/
theorem wl0_at (c : Dev nD) (t : Fin cfg0.N) (k j : Fin 128) :
    iblk0 V c 3 t (ix2 k j) = V c main_v25 (ix2 k j) := by
  show V c main_v25 (((cfg0.win 3).blk t).view.emb (ix2 k j)) = V c main_v25 (ix2 k j)
  refine congrArg (V c main_v25) ?_
  obtain ⟨-, -, -, -, -, -, e0, e1, -⟩ := idx0 t
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- The right weight matrix is staged whole at every point. -/
theorem wr0_at (c : Dev nD) (t : Fin cfg0.N) (k j : Fin 128) :
    iblk0 V c 4 t (ix2 k j) = V c main_v26 (ix2 k j) := by
  show V c main_v26 (((cfg0.win 4).blk t).view.emb (ix2 k j)) = V c main_v26 (ix2 k j)
  refine congrArg (V c main_v26) ?_
  obtain ⟨-, -, -, -, -, -, -, -, e0, e1, -⟩ := idx0 t
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- The bias row is staged whole at every point. -/
theorem bias0_at (c : Dev nD) (t : Fin cfg0.N) (j : Fin 128) :
    iblk0 V c 5 t (ix2 0 j) = V c main_v27 (ix2 0 j) := by
  show V c main_v27 (((cfg0.win 5).blk t).view.emb (ix2 0 j)) = V c main_v27 (ix2 0 j)
  refine congrArg (V c main_v27) ?_
  obtain ⟨-, -, -, -, -, -, -, -, -, -, e0, e1, -⟩ := idx0 t
  funext a; apply Fin.ext
  match a with
  | ⟨0, _⟩ => show win0_5.index t (0 : Fin 2) * 1 + 1 * 0 = 0; omega
  | ⟨1, _⟩ => show win0_5.index t (1 : Fin 2) * 128 + 1 * j.val = j.val; omega

/-- What point `t` writes back is tile `t` of the layer's whole-array function of the six arrays as the region
    finds them: the one store's payload at row `p`, channel `q` is the node value of row `t·5000 + p`. -/
theorem flushed0_eq (c : Dev nD) (t : Fin cfg0.N) :
    (dat0 V c).flushed 6 t = ((cfg0.win 6).blk t).view.read (Elt Ideal)
      (layerArr (V c main_v24) (V c main_arg0) (V c main_v12) (V c main_v25) (V c main_v26) (V c main_v27)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := t.isLt
  obtain ⟨-, -, -, -, -, -, -, -, -, -, -, -, e0, e1⟩ := idx0 t
  have hemb : ((cfg0.win 6).blk t).view.emb (ix2 p q) = (ix2 (⟨t.val * 5000 + p.val, by omega⟩ : Fin 100000) q : S100000x128.Idx) := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show k0_pay1 (iblk0 V c 0 t) (iblk0 V c 2 t) (iblk0 V c 1 t) (iblk0 V c 3 t) (iblk0 V c 4 t) (iblk0 V c 5 t) (ix2 p q)
    = layerArr (V c main_v24) (V c main_arg0) (V c main_v12) (V c main_v25) (V c main_v26) (V c main_v27) (((cfg0.win 6).blk t).view.emb (ix2 p q))
  refine (Cert.KernelIdeal.Sage.pay0_apply _ _ _ _ _ _ p q).trans ?_
  refine Eq.trans ?_ (congrArg (layerArr (V c main_v24) (V c main_arg0) (V c main_v12) (V c main_v25) (V c main_v26) (V c main_v27)) hemb).symm
  refine (nodeOut_congr ?_ ?_ ?_ ?_ ?_ ?_ q).trans (layerArr_ix2 _ _ _ _ _ _ _ q).symm
  · exact funext fun k => agg0_at V c t p k _ rfl
  · exact funext fun k => feat0_at V c t p k _ rfl
  · exact inv0_at V c t p _ rfl
  · exact funext fun k => funext fun j => wl0_at V c t k j
  · exact funext fun k => funext fun j => wr0_at V c t k j
  · exact funext fun j => bias0_at V c t j

/-- An index of the output array is in point `t`'s tile iff each coordinate is in the tile's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- The twenty tiles cover the output array: row `r` lies in tile `r / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < 20 := by omega
  refine ⟨⟨(i 0).val / 5000, hlt⟩, flush0_6 _, ?_⟩
  rw [mem_blk0]
  obtain ⟨-, -, -, -, -, -, -, -, -, -, -, -, e0, e1⟩ := idx0 ⟨(i 0).val / 5000, hlt⟩
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e1]; omega

/-- After region 0 its output array is the layer's whole-array function of the six arrays it staged. -/
theorem final0 (c : Dev nD) : (dat0 V c).arrAt 6 cfg0.N
    = layerArr (V c main_v24) (V c main_arg0) (V c main_v12) (V c main_v25) (V c main_v26) (V c main_v27) :=
  (dat0 V c).arrAt_eq_of_cover 6 _ (fun t _ => flushed0_eq V c t) (cover0)

/-! ## Region 1 -/

/-- The printed index maps of region 1, decided over its twenty grid points: the three row-tiled inputs and the
    output sit at block row `t`, column block `0`; the two weight matrices and the bias row are one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the aggregated-features tile at point `t` is row `t·5000 + p` of the array. -/
theorem agg1_at (c : Dev nD) (t : Fin cfg1.N) (p : Fin 5000) (k : Fin 128) (r : Fin 100000) (hr : r.val = t.val * 5000 + p.val) :
    iblk1 V c 0 t (ix2 p k) = V c main_v40 (ix2 r k) := by
  show V c main_v40 (((cfg1.win 0).blk t).view.emb (ix2 p k)) = V c main_v40 (ix2 r k)
  refine congrArg (V c main_v40) ?_
  obtain ⟨e0, e1, -⟩ := idx1 t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the node-features tile at point `t` is row `t·5000 + p` of the array. -/
theorem feat1_at (c : Dev nD) (t : Fin cfg1.N) (p : Fin 5000) (k : Fin 128) (r : Fin 100000) (hr : r.val = t.val * 5000 + p.val) :
    iblk1 V c 1 t (ix2 p k) = V c main_v28 (ix2 r k) := by
  show V c main_v28 (((cfg1.win 1).blk t).view.emb (ix2 p k)) = V c main_v28 (ix2 r k)
  refine congrArg (V c main_v28) ?_
  obtain ⟨-, -, e0, e1, -⟩ := idx1 t
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Entry `p` of the reciprocal-degree column tile at point `t` is entry `t·5000 + p` of the column. -/
theorem inv1_at (c : Dev nD) (t : Fin cfg1.N) (p : Fin 5000) (r : Fin 100000) (hr : r.val = t.val * 5000 + p.val) :
    iblk1 V c 2 t (ix2 p 0) = V c main_v12 (ix2 r 0) := by
  show V c main_v12 (((cfg1.win 2).blk t).view.emb (ix2 p 0)) = V c main_v12 (ix2 r 0)
  refine congrArg (V c main_v12) ?_
  obtain ⟨-, -, -, -, e0, e1, -⟩ := idx1 t
  funext a; apply Fin.ext
  match a with
  | ⟨0, _⟩ => show win1_2.index t (0 : Fin 2) * 5000 + 1 * p.val = r.val; omega
  | ⟨1, _⟩ => show win1_2.index t (1 : Fin 2) * 1 + 1 * 0 = 0; omega

/-- The left weight matrix is staged whole at every point. -/
theorem wl1_at (c : Dev nD) (t : Fin cfg1.N) (k j : Fin 128) :
    iblk1 V c 3 t (ix2 k j) = V c main_v41 (ix2 k j) := by
  show V c main_v41 (((cfg1.win 3).blk t).view.emb (ix2 k j)) = V c main_v41 (ix2 k j)
  refine congrArg (V c main_v41) ?_
  obtain ⟨-, -, -, -, -, -, e0, e1, -⟩ := idx1 t
  funext a; apply Fin.ext
  match a with
  | ⟨0, _⟩ => show win1_3.index t (0 : Fin 2) * 128 + 1 * k.val = k.val; omega
  | ⟨1, _⟩ => show win1_3.index t (1 : Fin 2) * 128 + 1 * j.val = j.val; omega

/-- The right weight matrix is staged whole at every point. -/
theorem wr1_at (c : Dev nD) (t : Fin cfg1.N) (k j : Fin 128) :
    iblk1 V c 4 t (ix2 k j) = V c main_v42 (ix2 k j) := by
  show V c main_v42 (((cfg1.win 4).blk t).view.emb (ix2 k j)) = V c main_v42 (ix2 k j)
  refine congrArg (V c main_v42) ?_
  obtain ⟨-, -, -, -, -, -, -, -, e0, e1, -⟩ := idx1 t
  funext a; apply Fin.ext
  match a with
  | ⟨0, _⟩ => show win1_4.index t (0 : Fin 2) * 128 + 1 * k.val = k.val; omega
  | ⟨1, _⟩ => show win1_4.index t (1 : Fin 2) * 128 + 1 * j.val = j.val; omega

/-- The bias row is staged whole at every point. -/
theorem bias1_at (c : Dev nD) (t : Fin cfg1.N) (j : Fin 128) :
    iblk1 V c 5 t (ix2 0 j) = V c main_v43 (ix2 0 j) := by
  show V c main_v43 (((cfg1.win 5).blk t).view.emb (ix2 0 j)) = V c main_v43 (ix2 0 j)
  refine congrArg (V c main_v43) ?_
  obtain ⟨-, -, -, -, -, -, -, -, -, -, e0, e1, -⟩ := idx1 t
  funext a; apply Fin.ext
  match a with
  | ⟨0, _⟩ => show win1_5.index t (0 : Fin 2) * 1 + 1 * 0 = 0; omega
  | ⟨1, _⟩ => show win1_5.index t (1 : Fin 2) * 128 + 1 * j.val = j.val; omega

/-- What point `t` writes back is tile `t` of the layer's whole-array function of the six arrays as the region
    finds them: the one store's payload at row `p`, channel `q` is the node value of row `t·5000 + p`. -/
theorem flushed1_eq (c : Dev nD) (t : Fin cfg1.N) :
    (dat1 V c).flushed 6 t = ((cfg1.win 6).blk t).view.read (Elt Ideal)
      (layerArr (V c main_v40) (V c main_v28) (V c main_v12) (V c main_v41) (V c main_v42) (V c main_v43)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := t.isLt
  obtain ⟨-, -, -, -, -, -, -, -, -, -, -, -, e0, e1⟩ := idx1 t
  have hemb : ((cfg1.win 6).blk t).view.emb (ix2 p q) = (ix2 (⟨t.val * 5000 + p.val, by omega⟩ : Fin 100000) q : S100000x128.Idx) := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show k1_pay1 (iblk1 V c 0 t) (iblk1 V c 2 t) (iblk1 V c 1 t) (iblk1 V c 3 t) (iblk1 V c 4 t) (iblk1 V c 5 t) (ix2 p q)
    = layerArr (V c main_v40) (V c main_v28) (V c main_v12) (V c main_v41) (V c main_v42) (V c main_v43) (((cfg1.win 6).blk t).view.emb (ix2 p q))
  refine (Cert.KernelIdeal.Sage.pay1_apply _ _ _ _ _ _ p q).trans ?_
  refine Eq.trans ?_ (congrArg (layerArr (V c main_v40) (V c main_v28) (V c main_v12) (V c main_v41) (V c main_v42) (V c main_v43)) hemb).symm
  refine (nodeOut_congr ?_ ?_ ?_ ?_ ?_ ?_ q).trans (layerArr_ix2 _ _ _ _ _ _ _ q).symm
  · exact funext fun k => agg1_at V c t p k _ rfl
  · exact funext fun k => feat1_at V c t p k _ rfl
  · exact inv1_at V c t p _ rfl
  · exact funext fun k => funext fun j => wl1_at V c t k j
  · exact funext fun k => funext fun j => wr1_at V c t k j
  · exact funext fun j => bias1_at V c t j

/-- An index of the output array is in point `t`'s tile iff each coordinate is in the tile's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v44).slice (win1_6.rect t)).set ↔ _
  rw [View.set_slice_whole, Rect.mem_set_unit]
  exact Iff.rfl

/-- The twenty tiles cover the output array: row `r` lies in tile `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < 20 := by omega
  refine ⟨⟨(i 0).val / 5000, hlt⟩, flush1_6 _, ?_⟩
  rw [mem_blk1]
  obtain ⟨-, -, -, -, -, -, -, -, -, -, -, -, e0, e1⟩ := idx1 ⟨(i 0).val / 5000, hlt⟩
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e1]; omega

/-- After region 1 its output array is the layer's whole-array function of the six arrays it staged. -/
theorem final1 (c : Dev nD) : (dat1 V c).arrAt 6 cfg1.N
    = layerArr (V c main_v40) (V c main_v28) (V c main_v12) (V c main_v41) (V c main_v42) (V c main_v43) :=
  (dat1 V c).arrAt_eq_of_cover 6 _ (fun t _ => flushed1_eq V c t) (cover1)

end Cert.KernelIdeal.RegionValue

end
-- ==== Proof.Fold.lean ====
/-
  The idealized tiled program's result as an array function of its eight arguments.

  With `e` the edge list and `x` the node features: the first layer's output is the whole-array layer function of
  the neighbour sums of `x`, of `x`, of the reciprocal clamped in-degrees, and of the first layer's transposed
  weights and bias row; the second layer's output is the same function of the neighbour sums of the first output,
  of the first output, of the same reciprocal degrees and of the second layer's weights and bias; the result
  buffer ends holding the two joined along a new last axis.
-/
import proofs.«150339_j19851338842495_2_alg».proof.Proof.FoldA
import proofs.«150339_j19851338842495_2_alg».proof.Proof.FoldB
import proofs.«150339_j19851338842495_2_alg».proof.Proof.RegionValue

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.KernelIdeal.RegionValue

variable (m : (ℓ : Loc nD τ sig) → Buf (Elt Ideal) ℓ) (ρ : Dev nD → PrngReg)

/-- The layer's whole-array function depends on its six arrays only. -/
theorem layerArr_congr {agg agg' h h' : S100000x128.Idx → EReal} {inv inv' : S100000x1.Idx → EReal}
    {wl wl' wr wr' : S128x128.Idx → EReal} {b b' : S1x128.Idx → EReal}
    (h0 : agg = agg') (h1 : h = h') (h2 : inv = inv') (h3 : wl = wl') (h4 : wr = wr') (h5 : b = b') :
    layerArr agg h inv wl wr b = layerArr agg' h' inv' wl' wr' b' := by
  subst h0 h1 h2 h3 h4 h5; rfl

/-- The first layer's output: the layer function of the neighbour sums of the node features, the node features, the
    reciprocal degrees, and the first layer's weights and bias. -/
theorem out0_eq (c : Dev nD) : out0 m ρ c
    = layerArr (aggK (m ((c : Thread nD τ).loc main_arg0)) (srcK (m ((c : Thread nD τ).loc main_arg1))) (dstK (m ((c : Thread nD τ).loc main_arg1)))) (m ((c : Thread nD τ).loc main_arg0))
        (invK (dstK (m ((c : Thread nD τ).loc main_arg1)))) (trK (m ((c : Thread nD τ).loc main_arg2))) (trK (m ((c : Thread nD τ).loc main_arg4))) (rowK (m ((c : Thread nD τ).loc main_arg3))) :=
  (final0 (V1 m ρ) c).trans (layerArr_congr (W1_v24 m ρ c) (W1_arg0 m ρ c) (W1_v12 m ρ c) (W1_v25 m ρ c) (W1_v26 m ρ c) (W1_v27 m ρ c))

/-- The second layer's output: the same function of the neighbour sums of the first output, the first output, the
    same reciprocal degrees, and the second layer's weights and bias. -/
theorem out1_eq (c : Dev nD) : out1 m ρ c
    = layerArr (aggK (out0 m ρ c) (srcK (m ((c : Thread nD τ).loc main_arg1))) (dstK (m ((c : Thread nD τ).loc main_arg1)))) (out0 m ρ c)
        (invK (dstK (m ((c : Thread nD τ).loc main_arg1)))) (trK (m ((c : Thread nD τ).loc main_arg5))) (trK (m ((c : Thread nD τ).loc main_arg7))) (rowK (m ((c : Thread nD τ).loc main_arg6))) :=
  (final1 (V3 m ρ) c).trans (layerArr_congr
    ((W3_v40 m ρ c).trans (by rw [W2_v28, W2_v1, W2_v3, W1_v1, W1_v3]))
    ((W3_v28 m ρ c).trans (W2_v28 m ρ c))
    ((W3_v12 m ρ c).trans ((W2_v12 m ρ c).trans (W1_v12 m ρ c)))
    ((W3_v41 m ρ c).trans (by rw [W2_arg5, W1_arg5]))
    ((W3_v42 m ρ c).trans (by rw [W2_arg7, W1_arg7]))
    ((W3_v43 m ρ c).trans (by rw [W2_arg6, W1_arg6])))

/-- The result buffer after the last stretch: the two layers' outputs joined along a new last axis. -/
theorem result_eq (c : Dev nD) : W5 m ρ c (Proc.devRef .tc main_v47) = outK (out0 m ρ c) (out1 m ρ c) := by
  rw [W5_v47, W4_v28, W3_v28, W2_v28, W4_v44]

end Cert.KernelIdeal.Fold

end
-- ==== Proof.RefLayer.lean ====
/-
  One graph-convolution layer of the reference program, read at one node and one output channel.

  The reference computes a layer on whole arrays: the aggregated rows `agg` are divided, row by row, by the degree
  column `dg`; the quotient is contracted with the transpose of `Wl`; the bias row `b` is added; the node features `h`
  contracted with the transpose of `Wr` are added; the result is clamped at zero. `refLayer` is that array expression
  with free operands. `refLayer_apply` reads it at `(r, j)`:

      max (((Σₖ (agg(r,k) / dg r) · Wl(j,k)) + b j) + Σₖ h(r,k) · Wr(j,k)) 0,

  and rewrites it to the shared `Cert.Sage.nodeOut` by two laws of the extended reals: for `d ≠ 0` a quotient `a / d`
  is `a · (1 / d)` (both are `a · d⁻¹`), and `(A + c) + B = (A + B) + c`.
-/
import proofs.«150339_j19851338842495_2_alg».proof.Proof.Gen.ReferenceIdeal.Read
import proofs.«150339_j19851338842495_2_alg».proof.Proof.Spec
import Idealize.ShloMosaic.Lib.ValueIdx
import Idealize.ShloMosaic.Lib.Pipeline.Value
import Idealize.ShloMosaic.PureOps.Ideal.Laws

noncomputable section

namespace Cert.ReferenceIdeal.Sage

open Idealize.ShloMosaic Idealize.ShloMosaic.ValueIdx Cert.ReferenceIdeal Cert.ReferenceIdeal.Gen

/-- One layer of the reference program as a function of its operand arrays: aggregated rows `agg`, node features `h`,
    degrees `dg`, left weights `Wl`, bias `b`, right weights `Wr`. -/
def refLayer (agg h : (⟨S100000x128, .f32⟩ : BufTy).Contents (Elt Ideal)) (dg : (⟨S100000, .f32⟩ : BufTy).Contents (Elt Ideal))
    (Wl : (⟨S128x128, .f32⟩ : BufTy).Contents (Elt Ideal)) (b : (⟨S128, .f32⟩ : BufTy).Contents (Elt Ideal))
    (Wr : (⟨S128x128, .f32⟩ : BufTy).Contents (Elt Ideal)) : (⟨S100000x128, .f32⟩ : BufTy).Contents (Elt Ideal) :=
  maximumf (F := Ideal) (φ := .f32) (addf (F := Ideal) (φ := .f32) (addf (F := Ideal) (φ := .f32) (Host.dotGeneral (F := Ideal) (φ₁ := .f32) (φ₂ := .f32) dot_S100000x128_S128x128_S100000x128_1_0_0_1_n_n none (Host.divf (F := Ideal) (φ := .f32) agg (broadcastInDim S100000x128 ![0, 1] bcast_S100000x1_S100000x128_0_1 (broadcastInDim S100000x1 ![0] bcast_S100000_S100000x1_0 dg))) (transpose S128x128 [1, 0] Wl transposes_S128x128_S128x128_1_0)) (broadcastInDim S100000x128 ![0, 1] bcast_S1x128_S100000x128_0_1 (broadcastInDim S1x128 ![1] bcast_S128_S1x128_1 b))) (Host.dotGeneral (F := Ideal) (φ₁ := .f32) (φ₂ := .f32) dot_S100000x128_S128x128_S100000x128_1_0_0_1_n_n none h (transpose S128x128 [1, 0] Wr transposes_S128x128_S128x128_1_0))) (broadcastInDim S100000x128 ![] bcast_S_S100000x128 (constant (F := Ideal) S_ .f32 0x00000000#32))

/-- Division by a nonzero extended real is multiplication by the reciprocal `1 / d`: both sides are `a * d⁻¹`. -/
theorem div_eq_mul_one_div (a d : EReal) (hd : d ≠ 0) : Ideal.div a d = a * Ideal.div 1 d := by
  unfold Ideal.div
  rw [if_neg hd, if_neg hd, one_mul]

/-- The splat of the f32 zero reads `0` everywhere. -/
theorem zero_apply (i : S100000x128.Idx) :
    broadcastInDim S100000x128 ![] bcast_S_S100000x128 (constant (F := Ideal) S_ .f32 0x00000000#32) i = (0 : EReal) := by
  refine (broadcastInDim_apply _ bcast_S_S100000x128 (constant (F := Ideal) S_ .f32 0x00000000#32) i ix0 (fun a => a.elim0)).trans ?_
  exact Ideal.ofBits_zero_f32

/-- The bias row, broadcast over the nodes, reads `b j` at `(r, j)`. -/
theorem bias_apply (b : (⟨S128, .f32⟩ : BufTy).Contents (Elt Ideal)) (r : Fin 100000) (j : Fin 128) :
    broadcastInDim S100000x128 ![0, 1] bcast_S1x128_S100000x128_0_1 (broadcastInDim S1x128 ![1] bcast_S128_S1x128_1 b) (ix2 r j) = b (ix1 j) := by
  generalize hy : broadcastInDim S1x128 ![1] bcast_S128_S1x128_1 b = y
  refine (broadcastInDim_apply _ bcast_S1x128_S100000x128_0_1 y (ix2 r j) (ix2 (⟨0, Nat.one_pos⟩ : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  subst hy
  exact broadcastInDim_apply _ bcast_S128_S1x128_1 b (ix2 (⟨0, Nat.one_pos⟩ : Fin 1) j) (ix1 j) (fun a => match a with
    | ⟨0, _⟩ => by show j.val = if (128 : Nat) = 1 then 0 else j.val; rw [if_neg (by decide)])

/-- The degree column, broadcast along the channels, reads `dg r` at `(r, k)`. -/
theorem deg_apply (dg : (⟨S100000, .f32⟩ : BufTy).Contents (Elt Ideal)) (r : Fin 100000) (k : Fin 128) :
    broadcastInDim S100000x128 ![0, 1] bcast_S100000x1_S100000x128_0_1 (broadcastInDim S100000x1 ![0] bcast_S100000_S100000x1_0 dg) (ix2 r k) = dg (ix1 r) := by
  generalize hy : broadcastInDim S100000x1 ![0] bcast_S100000_S100000x1_0 dg = y
  refine (broadcastInDim_apply _ bcast_S100000x1_S100000x128_0_1 y (ix2 r k) (ix2 r (⟨0, Nat.one_pos⟩ : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  subst hy
  exact broadcastInDim_apply _ bcast_S100000_S100000x1_0 dg (ix2 r (⟨0, Nat.one_pos⟩ : Fin 1)) (ix1 r) (fun a => match a with
    | ⟨0, _⟩ => by show r.val = if (100000 : Nat) = 1 then 0 else r.val; rw [if_neg (by decide)])

/-- The transposed weight matrix at `(k, j)` is the matrix at `(j, k)`. -/
theorem transpose_apply' (W : (⟨S128x128, .f32⟩ : BufTy).Contents (Elt Ideal)) (k j : Fin 128) :
    transpose S128x128 [1, 0] W transposes_S128x128_S128x128_1_0 (ix2 k j) = W (ix2 j k) :=
  transpose_apply [1, 0] W transposes_S128x128_S128x128_1_0 (ix2 k j) (ix2 j k) (fun b => match b with
    | ⟨0, _⟩ => rfl
    | ⟨1, _⟩ => rfl)

/-- The rows-by-columns product at `(r, j)` is the sum over the contracted axis. -/
theorem dot_apply (x : FVec Ideal S100000x128 .f32) (w : FVec Ideal S128x128 .f32) (r : Fin 100000) (j : Fin 128) :
    Host.dotGeneral (F := Ideal) (φ₁ := .f32) (φ₂ := .f32) dot_S100000x128_S128x128_S100000x128_1_0_0_1_n_n none x w (ix2 r j)
      = ∑ k : Fin 128, x (ix2 r k) * w (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact Read.lhs_main_v24_0 _ _
    | ⟨1, _⟩ => exact (Read.lhs_main_v24_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (Read.rhs_main_v24_0 _ _).trans hk
    | ⟨1, _⟩ => exact Read.rhs_main_v24_1 _ _)
  rw [el, er]

/-- The layer at node `r` and channel `j`, when no degree is zero, is `nodeOut` of row `r` of `agg` and of `h`, the
    reciprocal degree `1 / dg r`, the transposed weights and the bias. -/
theorem refLayer_apply (agg h : (⟨S100000x128, .f32⟩ : BufTy).Contents (Elt Ideal)) (dg : (⟨S100000, .f32⟩ : BufTy).Contents (Elt Ideal))
    (Wl : (⟨S128x128, .f32⟩ : BufTy).Contents (Elt Ideal)) (b : (⟨S128, .f32⟩ : BufTy).Contents (Elt Ideal))
    (Wr : (⟨S128x128, .f32⟩ : BufTy).Contents (Elt Ideal))
    (hdg : ∀ r : Fin 100000, dg (ix1 r) ≠ 0) (r : Fin 100000) (j : Fin 128) :
    refLayer agg h dg Wl b Wr (ix2 r j)
      = Cert.Sage.nodeOut (fun k => agg (ix2 r k)) (fun k => h (ix2 r k)) (Ideal.div 1 (dg (ix1 r)))
          (fun k j' => Wl (ix2 j' k)) (fun k j' => Wr (ix2 j' k)) (fun j' => b (ix1 j')) j := by
  have e1 : ∀ k : Fin 128, Host.divf (F := Ideal) (φ := .f32) agg (broadcastInDim S100000x128 ![0, 1] bcast_S100000x1_S100000x128_0_1 (broadcastInDim S100000x1 ![0] bcast_S100000_S100000x1_0 dg)) (ix2 r k)
      = agg (ix2 r k) * Ideal.div 1 (dg (ix1 r)) := fun k =>
    (congrArg (Ideal.div (agg (ix2 r k))) (deg_apply dg r k)).trans (div_eq_mul_one_div _ _ (hdg r))
  have eL : Host.dotGeneral (F := Ideal) (φ₁ := .f32) (φ₂ := .f32) dot_S100000x128_S128x128_S100000x128_1_0_0_1_n_n none (Host.divf (F := Ideal) (φ := .f32) agg (broadcastInDim S100000x128 ![0, 1] bcast_S100000x1_S100000x128_0_1 (broadcastInDim S100000x1 ![0] bcast_S100000_S100000x1_0 dg))) (transpose S128x128 [1, 0] Wl transposes_S128x128_S128x128_1_0) (ix2 r j)
      = ∑ k : Fin 128, (agg (ix2 r k) * Ideal.div 1 (dg (ix1 r))) * Wl (ix2 j k) :=
    (dot_apply _ _ r j).trans (Finset.sum_congr rfl fun k _ => congrArg₂ (· * ·) (e1 k) (transpose_apply' Wl k j))
  have eR : Host.dotGeneral (F := Ideal) (φ₁ := .f32) (φ₂ := .f32) dot_S100000x128_S128x128_S100000x128_1_0_0_1_n_n none h (transpose S128x128 [1, 0] Wr transposes_S128x128_S128x128_1_0) (ix2 r j)
      = ∑ k : Fin 128, h (ix2 r k) * Wr (ix2 j k) :=
    (dot_apply _ _ r j).trans (Finset.sum_congr rfl fun k _ => congrArg (h (ix2 r k) * ·) (transpose_apply' Wr k j))
  unfold refLayer Cert.Sage.nodeOut
  refine (congrArg₂ max (congrArg₂ (· + ·) (congrArg₂ (· + ·) eL (bias_apply b r j)) eR) (zero_apply (ix2 r j))).trans ?_
  exact congrArg (max · 0) (add_right_comm _ _ _)

end Cert.ReferenceIdeal.Sage

end
-- ==== Proof.RefTerm.lean ====
/-
  The reference program's result, named piece by piece.

  The reference reads the edge list's two rows (sources `srcR`, destinations `dstR`), and in each of its two layers
  sums the source rows into their destinations (`aggR`: a gather of the node rows at the sources, negative indices
  wrapped by the node count, scatter-added into a zero array at the destinations), counts each node's incoming edges
  and clamps the count below by one (`degR`), and applies `refLayer`. The second layer runs on the first layer's
  output with its own weights; the two layer outputs are stacked along a new last axis (`outR`).

  `res_eq`: the composed result term of the run is `refRes` of the arguments; the two are the same term, one spelt out
  and one through the names. `degR_ne_zero`: the clamped degree is `max (count) 1 ≥ 1`, so it is never zero.
-/
import proofs.«150339_j19851338842495_2_alg».proof.Proof.Gen.ReferenceIdeal.Read
import proofs.«150339_j19851338842495_2_alg».proof.Proof.Spec
import proofs.«150339_j19851338842495_2_alg».proof.Proof.RefLayer
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Sage

open Idealize.ShloMosaic Idealize.ShloMosaic.ValueIdx Cert.ReferenceIdeal Cert.ReferenceIdeal.Gen Idealize.ShloMosaic.TcCoe Idealize.SL.Sem Idealize.ShloMosaic.StableHlo

abbrev EdgeArr := (⟨S2x1600000, .i32⟩ : BufTy).Contents (Elt Ideal)
abbrev EdgeRow := (⟨S1600000, .i32⟩ : BufTy).Contents (Elt Ideal)
abbrev NodeArr := (⟨S100000x128, .f32⟩ : BufTy).Contents (Elt Ideal)
abbrev MatArr := (⟨S128x128, .f32⟩ : BufTy).Contents (Elt Ideal)
abbrev VecArr := (⟨S128, .f32⟩ : BufTy).Contents (Elt Ideal)

/-- The edge list's row of source nodes. -/
def srcR (e : EdgeArr) : EdgeRow := shapeCast _ (extractStridedSlice S1x1600000 ![0, 0] e slices_S2x1600000_S1x1600000_0_0) shapeCasts_S1x1600000_S1600000

/-- The edge list's row of destination nodes. -/
def dstR (e : EdgeArr) : EdgeRow := shapeCast _ (extractStridedSlice S1x1600000 ![1, 0] e slices_S2x1600000_S1x1600000_1_0) shapeCasts_S1x1600000_S1600000

/-- For every node, the sum of the rows of `h` at the sources of its incoming edges. -/
def aggR (h : NodeArr) (s d : EdgeRow) : NodeArr := Host.scatterAdd (F := Ideal) (φ := .f32) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 d) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))

/-- For every node, the number of its incoming edges, clamped below by one. -/
def degR (d : EdgeRow) : (⟨S100000, .f32⟩ : BufTy).Contents (Elt Ideal) := maximumf (F := Ideal) (φ := .f32) (Host.scatterAdd (F := Ideal) (φ := .f32) scatter_S100000_S1600000x1_S1600000_n_0_0_1 (broadcastInDim S100000 ![] bcast_S_S100000 (constant (F := Ideal) S_ .f32 0x00000000#32)) (broadcastInDim S1600000x1 ![0] bcast_S1600000_S1600000x1_0 d) (broadcastInDim S1600000 ![] bcast_S_S1600000 (constant (F := Ideal) S_ .f32 0x3F800000#32))) (broadcastInDim S100000 ![] bcast_S_S100000 (constant (F := Ideal) S_ .f32 0x3F800000#32))

/-- Two node arrays stacked along a new last axis. -/
def outR (y1 y2 : NodeArr) : (⟨S100000x128x2, .f32⟩ : BufTy).Contents (Elt Ideal) := concatenate S100000x128x2 2 [⟨S100000x128x1, broadcastInDim S100000x128x1 ![0, 1] bcast_S100000x128_S100000x128x1_0_1 y1⟩, ⟨S100000x128x1, broadcastInDim S100000x128x1 ![0, 1] bcast_S100000x128_S100000x128x1_0_1 y2⟩] concatenates_S100000x128x1_S100000x128x1_S100000x128x2_d2

/-- One layer of the reference on node features `x` and edge list `e`. -/
def layer1R (x : NodeArr) (e : EdgeArr) (wl : MatArr) (b : VecArr) (wr : MatArr) : NodeArr := refLayer (aggR x (srcR e) (dstR e)) x (degR (dstR e)) wl b wr

/-- The reference's result: both layers' outputs, stacked. -/
def refRes (x : NodeArr) (e : EdgeArr) (w1l : MatArr) (b1 : VecArr) (w1r w2l : MatArr) (b2 : VecArr) (w2r : MatArr) := outR (layer1R x e w1l b1 w1r) (layer1R (layer1R x e w1l b1 w1r) e w2l b2 w2r)

/-- The splat of the f32 one reads `1` everywhere. -/
theorem one_apply (i : S100000.Idx) :
    broadcastInDim S100000 ![] bcast_S_S100000 (constant (F := Ideal) S_ .f32 0x3F800000#32) i = (1 : EReal) := by
  refine (broadcastInDim_apply _ bcast_S_S100000 (constant (F := Ideal) S_ .f32 0x3F800000#32) i ix0 (fun a => a.elim0)).trans ?_
  exact Ideal.ofBits_one_f32

/-- A maximum with an entry equal to one is at least one, hence not zero. -/
theorem max_one_ne_zero (s z : FVec Ideal S100000 .f32) (i : S100000.Idx) (hz : z i = (1 : EReal)) :
    maximumf (F := Ideal) (φ := .f32) s z i ≠ (0 : EReal) :=
  ne_of_gt (lt_of_lt_of_le zero_lt_one (hz.symm.le.trans (le_max_right (s i) (z i))))

/-- The clamped degree is at least one at every node, hence never zero. -/
theorem degR_ne_zero (d : EdgeRow) (r : Fin 100000) : degR d (ValueIdx.ix1 r) ≠ 0 := by
  unfold degR
  exact max_one_ne_zero _ _ _ (one_apply _)

set_option maxRecDepth 8192 in
/-- The reference run's result term is `refRes` of the eight arguments' launch contents: the two are one term, spelt
    with and without the names above. -/
theorem res_eq (m : (ℓ : Loc nD τ sig) → Buf (Elt Ideal) ℓ) (c : Dev nD) :
    Cert.ReferenceIdeal.Value.res_main_v62 (F := Ideal) m c
      = refRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v62 refRes outR layer1R refLayer aggR degR srcR dstR
  rfl

end Cert.ReferenceIdeal.Sage

end
-- ==== Proof.KLayout.lean ====
/-
  Four layout operations read at one index, over the extended reals.

  A weight matrix transposed; the bias vector laid out as a single row; a vector over the 100000 nodes laid out as a
  single column; and the scalar constant one broadcast over the nodes. Each moves or repeats entries without
  changing them, so each read is an entry of the operand (or the number one).
-/
import proofs.«150339_j19851338842495_2_alg».proof.Proof.Gen.KernelIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Sage

open Idealize.ShloMosaic Idealize.ShloMosaic.ValueIdx Cert.KernelIdeal Cert.KernelIdeal.Gen

/-! ## A trailing unit axis added to a vector -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The four reads -/

/-- The transposed weight matrix at `(k, j)` is the weight matrix at `(j, k)`. -/
theorem tr_apply (w : (⟨S128x128, .f32⟩ : BufTy).Contents (Elt Ideal)) (k j : Fin 128) :
    transpose S128x128 [1, 0] w transposes_S128x128_S128x128_1_0 (ix2 k j) = w (ix2 j k) :=
  transpose_ix2_apply w transposes_S128x128_S128x128_1_0 k j

/-- The bias vector laid out as one row: its entry `(0, j)` is the vector's entry `j`. -/
theorem row_apply (b : (⟨S128, .f32⟩ : BufTy).Contents (Elt Ideal)) (j : Fin 128) :
    shapeCast S1x128 b shapeCasts_S128_S1x128 (ix2 0 j) = b (ix1 j) :=
  shapeCast_a_1a_apply b shapeCasts_S128_S1x128 0 j

/-- A vector over the nodes laid out as one column: its entry `(r, 0)` is the vector's entry `r`. -/
theorem col_apply (v : (⟨S100000, .f32⟩ : BufTy).Contents (Elt Ideal)) (r : Fin 100000) :
    (shapeCast _ v shapeCasts_S100000_S100000x1 : (⟨S100000x1, .f32⟩ : BufTy).Contents (Elt Ideal)) (ix2 r 0) = v (ix1 r) :=
  shapeCast_a_a1_apply v shapeCasts_S100000_S100000x1 r 0

/-- The scalar constant one broadcast over the nodes is one at every node. -/
theorem bc1_apply (r : Fin 100000) :
    broadcastInDim S100000 ![] bcast_S_S100000 (constant (F := Ideal) S_ .f32 0x3F800000#32) (ix1 r) = 1 :=
  (broadcastInDim_apply _ bcast_S_S100000 _ (ix1 r) ix0 (fun a => a.elim0)).trans
    ((constant_apply _ _).trans Ideal.ofBits_one_f32)

end Cert.KernelIdeal.Sage

end
-- ==== Proof.LayerEq.lean ====
/-
  The tiled program's layer and the reference program's layer are the same array function.

  The tiled side states one layer as a whole-array function of six arrays: aggregated rows, node features, a
  column of reciprocal degrees, two weight matrices contracted on their first axis, and a bias row. The reference
  side states it as a function of the degrees themselves, the weight matrices contracted on their second axis and
  the bias vector. Fed the reciprocals of the degrees, the transposed matrices and the bias laid out as a row, the
  first is the second, provided no degree is zero: at node r and channel j both are the shared node value, and its
  six arguments agree — the two rows literally, the reciprocal because the column's entry (r, 0) is 1 / dg r, the
  matrices because a transpose swaps the two coordinates, the bias because the row's entry (0, j) is b j.
-/
import proofs.«150339_j19851338842495_2_alg».proof.Proof.RegionValue
import proofs.«150339_j19851338842495_2_alg».proof.Proof.KTerms
import proofs.«150339_j19851338842495_2_alg».proof.Proof.KLayout
import proofs.«150339_j19851338842495_2_alg».proof.Proof.RefLayer
import proofs.«150339_j19851338842495_2_alg».proof.Proof.Spec
import Idealize.ShloMosaic.Lib.ValueIdx

noncomputable section

namespace Cert.Sage.Bridge

open Idealize.ShloMosaic Idealize.ShloMosaic.ValueIdx

/-- The reciprocal-degree column at node `r`: the column is the quotient of the all-ones vector by the degrees,
    laid out as a column, so its entry `(r, 0)` is `1 / dg r`. -/
theorem invOfK_apply (dg : (⟨Cert.KernelIdeal.S100000, .f32⟩ : BufTy).Contents (Elt Ideal)) (r : Fin 100000) :
    Cert.KernelIdeal.Fold.invOfK dg (ix2 r 0) = Ideal.div 1 (dg (ix1 r)) := by
  unfold Cert.KernelIdeal.Fold.invOfK
  -- the column's entry (r, 0) is the vector's entry r
  refine (Cert.KernelIdeal.Sage.col_apply _ r).trans ?_
  -- the quotient is taken entry by entry, and the numerator's entry is one
  exact congrArg (fun x => Ideal.div x (dg (ix1 r))) (Cert.KernelIdeal.Sage.bc1_apply r)

/-- The tiled program's layer, fed the reciprocal-degree column, the transposed weight matrices and the bias row,
    is the reference program's layer of the degrees, the weight matrices and the bias vector, when no degree is
    zero: at every node and channel both are the same node value. -/
theorem layer_eq (agg h : Cert.KernelIdeal.Fold.NodeArr) (dg : (⟨Cert.KernelIdeal.S100000, .f32⟩ : BufTy).Contents (Elt Ideal)) (wl : Cert.KernelIdeal.Fold.MatArr) (b : Cert.KernelIdeal.Fold.VecArr) (wr : Cert.KernelIdeal.Fold.MatArr) (hdg : ∀ r : Fin 100000, dg (ValueIdx.ix1 r) ≠ 0) :
    Cert.KernelIdeal.RegionValue.layerArr agg h (Cert.KernelIdeal.Fold.invOfK dg) (Cert.KernelIdeal.Fold.trK wl) (Cert.KernelIdeal.Fold.trK wr) (Cert.KernelIdeal.Fold.rowK b)
      = Cert.ReferenceIdeal.Sage.refLayer agg h dg wl b wr := by
  funext i
  obtain ⟨r, j, rfl⟩ : ∃ (r : Fin 100000) (j : Fin 128), i = ix2 r j := ⟨i 0, i 1, eq_ix2 i⟩
  refine (Cert.KernelIdeal.RegionValue.layerArr_ix2 _ _ _ _ _ _ r j).trans ?_
  refine Eq.trans ?_ (Cert.ReferenceIdeal.Sage.refLayer_apply agg h dg wl b wr hdg r j).symm
  -- both sides are the node value; its six arguments agree one by one
  refine Cert.KernelIdeal.RegionValue.nodeOut_congr rfl rfl (invOfK_apply dg r) ?_ ?_ ?_ j
  · exact funext fun k => funext fun j' => Cert.KernelIdeal.Sage.tr_apply wl k j'
  · exact funext fun k => funext fun j' => Cert.KernelIdeal.Sage.tr_apply wr k j'
  · exact funext fun j' => Cert.KernelIdeal.Sage.row_apply b j'

end Cert.Sage.Bridge

end
-- ==== Proof.Bridge.lean ====
/-
  The two programs' result terms joined.

  Host side, the tiled program and the reference compute the same arrays by the same operations: the edge list's
  two rows, the neighbour sums (the tiled program passes the gathered rows through a narrower float format and
  back, which is the identity on extended reals), the clamped degrees, and the final stacking of the two layers'
  outputs. Each pair is one function written with two copies of the same shape and index-map constants, so the
  equalities hold by unfolding.

  `kernel_eq_ref`: if `y1`, `y2` are the tiled program's two layer arrays — each the whole-array layer function of the
  neighbour sums, the features, the reciprocal clamped degrees, the transposed weights and the bias row — then their
  stack is the reference's result. Each layer equals the reference's layer of the same operands because the clamped
  degree is at least one, hence nowhere zero.
-/
import proofs.«150339_j19851338842495_2_alg».proof.Proof.KTerms
import proofs.«150339_j19851338842495_2_alg».proof.Proof.RefTerm
import proofs.«150339_j19851338842495_2_alg».proof.Proof.RegionValue
import proofs.«150339_j19851338842495_2_alg».proof.Proof.LayerEq
import Idealize.ShloMosaic.Lib.ValueIdx

noncomputable section

namespace Cert.Sage.Bridge

open Idealize.ShloMosaic Idealize.ShloMosaic.ValueIdx
open Cert.KernelIdeal.Fold Cert.KernelIdeal.RegionValue Cert.ReferenceIdeal.Sage

set_option maxHeartbeats 400000 in
/-- The source rows of the two programs are the same function of the edge list. -/
theorem src_eq (e : Cert.KernelIdeal.Fold.EdgeArr) : srcK e = srcR e := rfl

set_option maxHeartbeats 400000 in
/-- The destination rows of the two programs are the same function of the edge list. -/
theorem dst_eq (e : Cert.KernelIdeal.Fold.EdgeArr) : dstK e = dstR e := rfl

set_option maxHeartbeats 400000 in
/-- The clamped degrees of the two programs are the same function of the destinations. -/
theorem deg_eq (d : Cert.KernelIdeal.Fold.EdgeRow) : degK d = degR d := rfl

set_option maxHeartbeats 400000 in
/-- Stacking two node arrays is the same function in the two programs. -/
theorem out_eq (y1 y2 : Cert.KernelIdeal.Fold.NodeArr) : outK y1 y2 = outR y1 y2 := rfl

set_option maxHeartbeats 400000 in
/-- The neighbour sums of the two programs agree: the changes of float format around the gather are the identity
    on extended reals. -/
theorem agg_eq (h : Cert.KernelIdeal.Fold.NodeArr) (s d : Cert.KernelIdeal.Fold.EdgeRow) : aggK h s d = aggR h s d := rfl

/-- The tiled program's two layer outputs, stacked, are the reference's result: each layer of the tiled program is
    the reference's layer of the same operands, the clamped degree being nowhere zero. -/
theorem kernel_eq_ref (x : Cert.KernelIdeal.Fold.NodeArr) (e : Cert.KernelIdeal.Fold.EdgeArr) (w1l : Cert.KernelIdeal.Fold.MatArr) (b1 : Cert.KernelIdeal.Fold.VecArr) (w1r w2l : Cert.KernelIdeal.Fold.MatArr) (b2 : Cert.KernelIdeal.Fold.VecArr) (w2r : Cert.KernelIdeal.Fold.MatArr) (y1 y2 : Cert.KernelIdeal.Fold.NodeArr)
    (h1 : y1 = layerArr (aggK x (srcK e) (dstK e)) x (invK (dstK e)) (trK w1l) (trK w1r) (rowK b1))
    (h2 : y2 = layerArr (aggK y1 (srcK e) (dstK e)) y1 (invK (dstK e)) (trK w2l) (trK w2r) (rowK b2)) :
    outK y1 y2 = refRes x e w1l b1 w1r w2l b2 w2r := by
  have hd : ∀ r : Fin 100000, degK (dstK e) (ValueIdx.ix1 r) ≠ 0 := fun r h0 =>
    degR_ne_zero (dstK e) r ((congrFun (deg_eq (dstK e)) (ValueIdx.ix1 r)).symm.trans h0)
  have key : ∀ (z : Cert.KernelIdeal.Fold.NodeArr) (wl : Cert.KernelIdeal.Fold.MatArr) (b : Cert.KernelIdeal.Fold.VecArr)
      (wr : Cert.KernelIdeal.Fold.MatArr),
      layerArr (aggK z (srcK e) (dstK e)) z (invK (dstK e)) (trK wl) (trK wr) (rowK b) = layer1R z e wl b wr := by
    intro z wl b wr
    refine (layer_eq (aggK z (srcK e) (dstK e)) z (degK (dstK e)) wl b wr hd).trans ?_
    unfold layer1R
    rw [agg_eq, src_eq, dst_eq, deg_eq]
  have e1 := h1.trans (key x w1l b1 w1r)
  have e2 := h2.trans (key y1 w2l b2 w2r)
  unfold refRes
  rw [out_eq, e2, e1]

end Cert.Sage.Bridge

end
-- ==== Proof.lean ====
/-
  Two-layer graph convolution with mean aggregation: the tiled program against its array-level reference.

  Both programs compute, for node features `x`, an edge list `e` and two layers of weights,
  `x₁ = relu (mean₁ · W1lᵀ + x · W1rᵀ + b1)` and `x₂ = relu (mean₂ · W2lᵀ + x₁ · W2rᵀ + b2)`, where `meanₗ` at a node is
  the sum of its in-neighbours' rows divided by its in-degree clamped below by one, and return `x₁` and `x₂` joined
  along a new last axis. The tiled program multiplies the neighbour sum by the reciprocal of the clamped degree and
  adds the bias last; the reference divides by the clamped degree and adds the bias between the two products.

  On the extended reals the two agree at every index with no assumption on the inputs: division by a value that is
  not zero is multiplication by its reciprocal (the clamped degree is at least one), and the three-term sum is
  reordered by commutativity and associativity alone. The gather over the sources and the scatter-add over the
  targets are the same functions of the same arguments in both programs and are never opened; a change of float
  format is the identity. So the first outputs are equal, hence the second layers are applied to equal arrays, and
  the joined results are equal.

  The three frame claims are the programs' runs with the results dropped; the tiled program is its own idealization
  (no rewrite was applied), so the preservation claim is trivial.
-/
import proofs.«150339_j19851338842495_2_alg».proof.Defs
import proofs.«150339_j19851338842495_2_alg».proof.Proof.Gen.Kernel
import proofs.«150339_j19851338842495_2_alg».proof.Proof.Gen.Kernel.Frame
import proofs.«150339_j19851338842495_2_alg».proof.Proof.Gen.KernelIdeal
import proofs.«150339_j19851338842495_2_alg».proof.Proof.Gen.KernelIdeal.Frame
import proofs.«150339_j19851338842495_2_alg».proof.Proof.Gen.ReferenceIdeal
import proofs.«150339_j19851338842495_2_alg».proof.Proof.Gen.Pre_finite_inputs
import proofs.«150339_j19851338842495_2_alg».proof.Proof.Gen.ReferenceIdeal.Run
import proofs.«150339_j19851338842495_2_alg».proof.Proof.Gen.ReferenceIdeal.Read
import proofs.«150339_j19851338842495_2_alg».proof.Proof.KernelRun
import proofs.«150339_j19851338842495_2_alg».proof.Proof.Fold
import proofs.«150339_j19851338842495_2_alg».proof.Proof.Bridge

noncomputable section

namespace Cert.Proof

open Idealize.ShloMosaic Idealize.ShloMosaic.TcCoe Idealize.SL.Sem

namespace SageClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the result buffer at the two layers'
    outputs joined: the tiled program by its run read through its five stretches, the reference by its run's term
    recognised as the same array functions; the two terms are equal index by index. -/
theorem algebraic : Cert.algebraic_KernelIdeal_ReferenceIdeal := by
  intro m ρ m' ρ' _ hagree
  refine ⟨fun c => Cert.KernelIdeal.Fold.outK (Cert.KernelIdeal.Fold.out0 m ρ c) (Cert.KernelIdeal.Fold.out1 m ρ c), ?_, ?_⟩
  · exact (θ_run Cert.KernelIdeal.defs _ _).mono
      (fun r h c => ⟨(h c).1.trans (Cert.KernelIdeal.Fold.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Sage.res_eq, a0, a1, a2, a3, a4, a5, a6, a7]
    exact (Cert.Sage.Bridge.kernel_eq_ref _ _ _ _ _ _ _ _ _ _
      (Cert.KernelIdeal.Fold.out0_eq m ρ c) (Cert.KernelIdeal.Fold.out1_eq m ρ c)).symm

end SageClaims

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
